-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64x32 .f32) (main_arg5 : FVec F S32 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩

abbrev nBuf : Space → Nat
  | .hbm => 94
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x32, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x32, .f32⟩
  | .hbm, ⟨79, _⟩ => ⟨S850000x32, .f32⟩
  | .hbm, ⟨80, _⟩ => ⟨S850000x32, .f32⟩
  | .hbm, ⟨81, _⟩ => ⟨S_, .f32⟩
  | .hbm, ⟨82, _⟩ => ⟨S50000x32, .f32⟩
  | .hbm, ⟨83, _⟩ => ⟨S850000x1, .i32⟩
  | .hbm, ⟨84, _⟩ => ⟨S50000x32, .f32⟩
  | .hbm, ⟨85, _⟩ => ⟨S1x32, .f32⟩
  | .hbm, ⟨86, _⟩ => ⟨S50000x32, .f32⟩
  | .hbm, ⟨87, _⟩ => ⟨S50000x32, .f32⟩
  | .hbm, ⟨88, _⟩ => ⟨S_, .f32⟩
  | .hbm, ⟨89, _⟩ => ⟨S32, .f32⟩
  | .hbm, ⟨90, _⟩ => ⟨S1x32, .f32⟩
  | .hbm, ⟨91, _⟩ => ⟨S_, .f32⟩
  | .hbm, ⟨92, _⟩ => ⟨S1x32, .f32⟩
  | .hbm, ⟨93, _⟩ => ⟨S1x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S32_d0 : S50000x32.ReducesTo [0] S32
  h_S_ : 0 < S_.numel
  bcast_S_S1x32 : S_.BroadcastsInDim S1x32 (![] : Fin 0 → Fin S1x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x64, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x32, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x32, .f32⟩
  | .hbm, ⟨112, _⟩ => ⟨S850000x1, .f32⟩
  | .hbm, ⟨113, _⟩ => ⟨S850000x32, .f32⟩
  | .hbm, ⟨114, _⟩ => ⟨S850000x32, .f32⟩
  | .hbm, ⟨115, _⟩ => ⟨S_, .f32⟩
  | .hbm, ⟨116, _⟩ => ⟨S50000x32, .f32⟩
  | .hbm, ⟨117, _⟩ => ⟨S850000x1, .i32⟩
  | .hbm, ⟨118, _⟩ => ⟨S50000x32, .f32⟩
  | .hbm, ⟨119, _⟩ => ⟨S1x32, .f32⟩
  | .hbm, ⟨120, _⟩ => ⟨S50000x32, .f32⟩
  | .hbm, ⟨121, _⟩ => ⟨S50000x32, .f32⟩
  | .hbm, ⟨122, _⟩ => ⟨S_, .f32⟩
  | .hbm, ⟨123, _⟩ => ⟨S32, .f32⟩
  | .hbm, ⟨124, _⟩ => ⟨S1x32, .f32⟩
  | .hbm, ⟨125, _⟩ => ⟨S_, .f32⟩
  | .hbm, ⟨126, _⟩ => ⟨S1x32, .f32⟩
  | .hbm, ⟨127, _⟩ => ⟨S1x32, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_v89 : Ref sig .tc := ⟨.hbm, 124, rfl⟩
abbrev main_cst_21 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S32_d0 : S50000x32.ReducesTo [0] S32
  h_S_ : 0 < S_.numel
  bcast_S_S1x32 : S_.BroadcastsInDim S1x32 (![] : Fin 0 → Fin S1x32.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf

class Facts : Prop extends Facts₀ where

variable [Facts]
-- ==== Proof.KRun.lean ====
/-
  The kernel program's run, with its result named.

  The program is two pipelined regions among stretches of host operations. Its run passes through nine boundaries;
  at each one every buffer of the core is known (`Gen.W0` … `Gen.W8`: the launch memory, a stretch's operations
  applied, a region's arrays at what its write-backs leave). Every weakly fair execution terminates without a fault,
  the result buffer ends at the last boundary's contents `Gen.W8` read at it, and the six arguments end as launched.
  The launch, the segments and the chain of thread states are the generated frame's; only the final reading differs:
  the last thread state holds every unscoped buffer at `Gen.W8`, so the result buffer is read there as well.
-/
import proofs.«141572_j49795850830443_2_alg».proof.Proof.Gen.KernelIdeal.Frame

set_option maxRecDepth 16384

noncomputable section

namespace Cert.KernelIdeal.Ran

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the arguments end as launched. -/
theorem run : θ_run defs (onTc (τ := τ) (main (F := F))) ⟨m, fun _ => 0, ρ⟩ (fun r => ∀ c : Dev nD,
      r.2.mem ((c.tc : Thread nD τ).loc main_v67) = W8 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v67 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Ran

end
-- ==== Proof.HostFn.lean ====
/-
  The host side of the graph network, as functions of arrays.

  Both programs compute a two-layer graph convolution on 50000 nodes and 800000 edges, each node given a self loop:
  with s(e), d(e) the source and destination of edge e (850000 of them after the self loops are appended),
  deg(n) = the number of edges with destination n, dinv(n) = deg(n)^(-1/2) where deg(n) > 0 and 0 elsewhere, and
  norm(e) = dinv(s(e)) · dinv(d(e)), a layer sends a projected feature array p to

      agg(n, q) = Σ_{e : d(e) = n} p(s(e), q) · norm(e)  +  b(q).

  The first layer is followed by max(·, 0), the second by the mean over the nodes. The functions below are exactly
  the programs' host operations composed (gather, multiply, scatter-add, …), stated over any float instance and over
  plain arrays; what is multiplied into a layer (the projection p) is an argument. Nothing here is opened again:
  the two programs apply these same functions, and only the projections differ.
-/
import proofs.«141572_j49795850830443_2_alg».proof.Proof.Gen.KernelIdeal

noncomputable section

namespace Cert.KernelIdeal.Gcn

open Cert.KernelIdeal Cert.KernelIdeal.Gen Idealize.ShloMosaic

variable {F : FTy → Type} [FloatOps F]

/-- The sources of the 850000 edges: row 0 of the edge array, then every node once (the self loops). -/
def srcIds (e : (⟨S2x800000, .i32⟩ : BufTy).Contents (Elt F)) : (⟨S850000, .i32⟩ : BufTy).Contents (Elt F) :=
  concatenate S850000 0 [⟨S800000, shapeCast _ (extractStridedSlice S1x800000 ![0, 0] e slices_S2x800000_S1x800000_0_0) shapeCasts_S1x800000_S800000⟩, ⟨S50000, iotaInDim S50000 32 0⟩] concatenates_S800000_S50000_S850000_d0

/-- The destinations of the 850000 edges: row 1 of the edge array, then every node once. -/
def dstIds (e : (⟨S2x800000, .i32⟩ : BufTy).Contents (Elt F)) : (⟨S850000, .i32⟩ : BufTy).Contents (Elt F) :=
  concatenate S850000 0 [⟨S800000, shapeCast _ (extractStridedSlice S1x800000 ![1, 0] e slices_S2x800000_S1x800000_1_0) shapeCasts_S1x800000_S800000⟩, ⟨S50000, iotaInDim S50000 32 0⟩] concatenates_S800000_S50000_S850000_d0

/-- A negative id counted from the end: id + 50000 where id < 0, as an [850000, 1] column of gather indices. -/
def wrapCol (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- deg: ones scattered onto the destinations. -/
def degree (dst : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

/-- dinv: deg^(-1/2) where deg > 0, zero elsewhere. -/
def degInv (dst : (⟨S850000, .i32⟩ : BufTy).Contents (Elt F)) : (⟨S50000, .f32⟩ : BufTy).Contents (Elt F) :=
  select (cmpf .ogt (degree dst) (broadcastInDim S50000 ![] bcast_S_S50000 (constant S_ .f32 0x00000000#32)))
    (Host.rsqrt (degree dst))
    (broadcastInDim S50000 ![] bcast_S_S50000 (id (constant S_ .f32 0x00000000#32)))

/-- Given dinv: dinv at the source times dinv at the destination, per edge, as an [850000, 1] column. -/
def edgeNormOf (dinv : (⟨S50000, .f32⟩ : BufTy).Contents (Elt F)) (src dst : (⟨S850000, .i32⟩ : BufTy).Contents (Elt F)) :
    (⟨S850000x1, .f32⟩ : BufTy).Contents (Elt F) :=
  broadcastInDim S850000x1 ![0] bcast_S850000_S850000x1_0
    (mulf (Host.gather gather_S50000_S850000x1_S850000_n_0_n_n_0_1_1 dinv (wrapCol src))
      (Host.gather gather_S50000_S850000x1_S850000_n_0_n_n_0_1_1 dinv (wrapCol dst)))

/-- norm: the edge weights of the graph's own degrees. -/
def edgeNorm (src dst : (⟨S850000, .i32⟩ : BufTy).Contents (Elt F)) : (⟨S850000x1, .f32⟩ : BufTy).Contents (Elt F) :=
  edgeNormOf (degInv dst) src dst

/-- The first layer after its projection p, before the rectifier: gather at the sources, scale by norm, scatter-add
    onto the destinations, add the bias. -/
def layerAgg (p : (⟨S50000x64, .f32⟩ : BufTy).Contents (Elt F)) (src dst : (⟨S850000, .i32⟩ : BufTy).Contents (Elt F))
    (nrm : (⟨S850000x1, .f32⟩ : BufTy).Contents (Elt F)) (b : (⟨S64, .f32⟩ : BufTy).Contents (Elt F)) :
    (⟨S50000x64, .f32⟩ : BufTy).Contents (Elt F) :=
  addf
    (Host.scatterAdd scatter_S50000x64_S850000x1_S850000x64_1_0_0_1
      (broadcastInDim S50000x64 ![] bcast_S_S50000x64 (constant S_ .f32 0x00000000#32))
      (broadcastInDim S850000x1 ![0] bcast_S850000_S850000x1_0 dst)
      (mulf (Host.gather gather_S50000x64_S850000x1_S850000x64_1_0_n_n_0_1_164 p (wrapCol src))
        (broadcastInDim S850000x64 ![0, 1] bcast_S850000x1_S850000x64_0_1 nrm)))
    (broadcastInDim S50000x64 ![0, 1] bcast_S1x64_S50000x64_0_1 (broadcastInDim S1x64 ![1] bcast_S64_S1x64_1 b))

/-- The rectifier: max with 0. -/
def relu (x : (⟨S50000x64, .f32⟩ : BufTy).Contents (Elt F)) : (⟨S50000x64, .f32⟩ : BufTy).Contents (Elt F) :=
  maximumf x (broadcastInDim S50000x64 ![] bcast_S_S50000x64 (constant S_ .f32 0x00000000#32))

/-- The first layer after its projection p. -/
def layerRelu (p : (⟨S50000x64, .f32⟩ : BufTy).Contents (Elt F)) (src dst : (⟨S850000, .i32⟩ : BufTy).Contents (Elt F))
    (nrm : (⟨S850000x1, .f32⟩ : BufTy).Contents (Elt F)) (b : (⟨S64, .f32⟩ : BufTy).Contents (Elt F)) :
    (⟨S50000x64, .f32⟩ : BufTy).Contents (Elt F) :=
  relu (layerAgg p src dst nrm b)

/-- The second layer after its projection p, then the mean over the 50000 nodes (a sum divided by 50000). -/
def layerMean (p : (⟨S50000x32, .f32⟩ : BufTy).Contents (Elt F)) (src dst : (⟨S850000, .i32⟩ : BufTy).Contents (Elt F))
    (nrm : (⟨S850000x1, .f32⟩ : BufTy).Contents (Elt F)) (b : (⟨S32, .f32⟩ : BufTy).Contents (Elt F)) :
    (⟨S1x32, .f32⟩ : BufTy).Contents (Elt F) :=
  Host.divf
    (broadcastInDim S1x32 ![1] bcast_S32_S1x32_1
      (Host.reduceAdd
        (addf
          (Host.scatterAdd scatter_S50000x32_S850000x1_S850000x32_1_0_0_1
            (broadcastInDim S50000x32 ![] bcast_S_S50000x32 (constant S_ .f32 0x00000000#32))
            (broadcastInDim S850000x1 ![0] bcast_S850000_S850000x1_0 dst)
            (mulf (Host.gather gather_S50000x32_S850000x1_S850000x32_1_0_n_n_0_1_132 p (wrapCol src))
              (broadcastInDim S850000x32 ![0, 1] bcast_S850000x1_S850000x32_0_1 nrm)))
          (broadcastInDim S50000x32 ![0, 1] bcast_S1x32_S50000x32_0_1 (broadcastInDim S1x32 ![1] bcast_S32_S1x32_1 b)))
        (constant S_ .f32 0x00000000#32) reducesTo_S50000x32_S32_d0 h_S_))
    (broadcastInDim S1x32 ![] bcast_S_S1x32 (constant S_ .f32 0x47435000#32))

end Cert.KernelIdeal.Gcn

end
-- ==== Proof.KHost.lean ====
/-
  The kernel program's host stretches, one at a time.

  Each stretch of host operations between (and around) the two regions is a fold over the buffers' contents. For any
  contents `V` at a stretch's start, the buffers later stretches read are given here as the graph-network functions of
  the buffers the stretch itself reads; every other buffer a later stretch reads passes through unchanged.
-/
import proofs.«141572_j49795850830443_2_alg».proof.Proof.Gen.KernelIdeal.Launch
import proofs.«141572_j49795850830443_2_alg».proof.Proof.HostFn
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (V : Valuation τ sig (Elt F))

/-! ## Before the first region: the edge ids, the degrees, the edge weights -/

theorem ops0_src : after hostOps0 V (Proc.devRef .tc main_v3) = Gcn.srcIds (V (Proc.devRef .tc main_arg1)) := by
  dsimp only [hostOps0]
  after_results
  rfl

theorem ops0_dst : after hostOps0 V (Proc.devRef .tc main_v6) = Gcn.dstIds (V (Proc.devRef .tc main_arg1)) := by
  dsimp only [hostOps0]
  after_results
  rfl

theorem ops0_pos : after hostOps0 V (Proc.devRef .tc main_v12)
    = cmpf .ogt (Gcn.degree (Gcn.dstIds (V (Proc.devRef .tc main_arg1)))) (broadcastInDim S50000 ![] bcast_S_S50000 (constant S_ .f32 0x00000000#32)) := by
  dsimp only [hostOps0]
  after_results
  rfl

theorem ops0_rsqrt : after hostOps0 V (Proc.devRef .tc main_v13) = Host.rsqrt (Gcn.degree (Gcn.dstIds (V (Proc.devRef .tc main_arg1)))) := by
  dsimp only [hostOps0]
  after_results
  rfl

theorem ops0_zero : after hostOps0 V (Proc.devRef .tc main_cst_2) = constant S_ .f32 0x00000000#32 := by
  dsimp only [hostOps0]
  after_results

theorem ops0_1_dinv : after hostOps0_1 V (Proc.devRef .tc main_v14)
    = select (V (Proc.devRef .tc main_v12)) (V (Proc.devRef .tc main_v13)) (broadcastInDim S50000 ![] bcast_S_S50000 (id (V (Proc.devRef .tc main_cst_2)))) := by
  dsimp only [hostOps0_1]
  after_results
  rfl

set_option maxHeartbeats 4000000 in
theorem ops0_2_norm : after hostOps0_2 V (Proc.devRef .tc main_v30)
    = Gcn.edgeNormOf (V (Proc.devRef .tc main_v14)) (V (Proc.devRef .tc main_v3)) (V (Proc.devRef .tc main_v6)) := by
  dsimp only [hostOps0_2]
  after_results_simp
  rfl

/-! ## Between the regions: the first layer -/

set_option maxHeartbeats 4000000 in
theorem ops1_agg : after hostOps1 V (Proc.devRef .tc main_v46)
    = Gcn.layerAgg (V (Proc.devRef .tc main_v31)) (V (Proc.devRef .tc main_v3)) (V (Proc.devRef .tc main_v6))
        (V (Proc.devRef .tc main_v30)) (V (Proc.devRef .tc main_arg3)) := by
  dsimp only [hostOps1]
  after_results_simp
  rfl

theorem ops1_1_relu : after hostOps1_1 V (Proc.devRef .tc main_v47) = Gcn.relu (V (Proc.devRef .tc main_v46)) := by
  dsimp only [hostOps1_1]
  after_results
  rfl

/-! ## After the second region: the second layer and the mean -/

set_option maxHeartbeats 4000000 in
theorem ops2_mean : after hostOps2 V (Proc.devRef .tc main_v67)
    = Gcn.layerMean (V (Proc.devRef .tc main_v48)) (V (Proc.devRef .tc main_v3)) (V (Proc.devRef .tc main_v6))
        (V (Proc.devRef .tc main_v30)) (V (Proc.devRef .tc main_arg5)) := by
  dsimp only [hostOps2]
  after_results_simp
  rfl

end Cert.KernelIdeal.Stretch

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Prod.lean ====
/-
  The matrix product both programs compute, as one function on the extended reals.

  `mm l r` is the M × N array whose entry (i, j) is the sum over the contracted coordinate k of l (i, k) · r (k, j).
  The host's `dot_general` of a plain rows × contraction by contraction × columns product is this function, and so
  is a `tpu.matmul` of the same dimension numbers into the zero accumulator whose operands were first narrowed to
  bf16: on the extended reals a change of float format is the identity, so the narrowing disappears.
-/
import proofs.«141572_j49795850830443_2_alg».proof.Proof.LibDot

noncomputable section

namespace Cert.Prod

open Idealize.ShloMosaic Idealize.ShloMosaic.ValueIdx

variable {M K N : Nat}

/-- The product of an M × K by a K × N array of extended reals. -/
def mm (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

/-- The host's `dot_general` contracting the left operand's columns with the right operand's rows is `mm`. -/
theorem dotGeneral_eq_mm (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, N]⟩ .f32) :
    Host.dotGeneral d none l r = mm l r :=
  funext fun y => LibDot.dotGeneral_plain_apply d hlc hrc hln hrn hlb hrb none .single l r y

/-- A `tpu.matmul` of the same dimension numbers into the zero accumulator, its operands narrowed to bf16 first,
    is `mm` of the operands as they were: the narrowing is the identity on the extended reals. -/
theorem matmul_eq_mm (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ .f32) (r : FVec Ideal ⟨2, ![K, N]⟩ .f32) (h : FTy.bits .bf16 < FTy.bits .f32) :
    matmul d none (truncf .bf16 l h) (truncf .bf16 r h) (constant ⟨2, ![M, N]⟩ .f32 0x00000000#32) = mm l r :=
  funext fun y =>
    LibDot.matmul_zero_plain_apply d hlc hrc hln hrn hlb hrb none (truncf .bf16 l h) (truncf .bf16 r h) y

/-- The product of a block of rows. If `x0` is rows p·R, …, p·R + R − 1 of `A`, then row j of `x0`'s product with
    `B` is row p·R + j of `A`'s product with `B`: an entry of a product reads one row of the left factor. -/
theorem mm_rows {R : Nat} (A : (⟨2, ![M, K]⟩ : Shape).Idx → EReal) (B : (⟨2, ![K, N]⟩ : Shape).Idx → EReal)
    (x0 : (⟨2, ![R, K]⟩ : Shape).Idx → EReal) (p : Nat)
    (hx0 : ∀ (y : (⟨2, ![R, K]⟩ : Shape).Idx) (z : (⟨2, ![M, K]⟩ : Shape).Idx),
      (z 0).val = p * R + (y 0).val → (z 1).val = (y 1).val → x0 y = A z)
    (j : (⟨2, ![R, N]⟩ : Shape).Idx) (i : (⟨2, ![M, N]⟩ : Shape).Idx)
    (hi0 : (i 0).val = p * R + (j 0).val) (hi1 : (i 1).val = (j 1).val) :
    mm x0 B j = mm A B i := by
  unfold mm
  refine Finset.sum_congr rfl fun k _ => ?_
  have hcol : (j 1 : Fin N) = i 1 := Fin.ext hi1.symm
  rw [hx0 (ix2 (j 0) k) (ix2 (i 0) k) hi0 rfl]
  exact congrArg (fun q : Fin N => A (ix2 (i 0) k) * B (ix2 k q)) hcol

end Cert.Prod

end
-- ==== Proof.Proj0.lean ====
/-
  Region 0 of the kernel program: what its result array holds when the region is left.

  The region is a pipeline over a grid of ten points. Point t stages rows 5000·t, …, 5000·t + 4999 of the left
  operand (a 50000 × 128 array) and the whole right operand (128 × 64); its body multiplies the two staged blocks
  (narrowed to bf16, accumulated from zero) and stores the 5000 × 64 product; the block is written back to rows
  5000·t, … of the 50000 × 64 result array. On the extended reals the body's product is the plain sum of products,
  an entry of a product depends on one row of the left factor only, and the ten row blocks tile the array: so the
  result array ends holding the product of the two whole operands, as they were when the region was entered.
  Stated for any contents `V` of the core's buffers at the region's entry.
-/
import proofs.«141572_j49795850830443_2_alg».proof.Proof.Gen.KernelIdeal.Frame
import proofs.«141572_j49795850830443_2_alg».proof.Proof.Prod
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Proj0

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of the two blocks it loads. -/
theorem pay_eq (x0 : Vec Ideal S5000x128 .f32) (x1 : Vec Ideal S128x64 .f32) : k0_pay1 x0 x1 = Cert.Prod.mm x0 x1 := by
  unfold k0_pay1
  exact Cert.Prod.matmul_eq_mm dot_S5000x128_S128x64_S5000x64_1_0_0_1_n_n rfl rfl rfl rfl rfl rfl x0 x1 bitsLt_bf16_f32

/-- The printed index maps over the grid: the left operand's and the result's blocks are block row t, the right
    operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000·t, … of the array. -/
theorem lblk_apply (c : Dev nD) (t : Fin cfg0.N) (y : S5000x128.Idx) (z : S50000x128.Idx)
    (h0 : (z 0).val = t.val * 5000 + (y 0).val) (h1 : (z 1).val = (y 1).val) :
    (iblk0 V c 0 t : Vec Ideal S5000x128 .f32) y = (V c main_arg0 : S50000x128.Idx → EReal) z := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * (y 0).val = (z 0).val; rw [e0, h0]; omega
  | ⟨1, _⟩ => show win0_0.index t 1 * 128 + 1 * (y 1).val = (z 1).val; rw [e1, h1]; omega

/-- The right operand's block at every point is the whole array. -/
theorem rblk_eq (c : Dev nD) (t : Fin cfg0.N) :
    (iblk0 V c 1 t : Vec Ideal S128x64 .f32) = (V c main_arg2 : S128x64.Idx → EReal) := by
  obtain ⟨-, -, e2, e3, -⟩ := idx_facts t
  funext y
  unfold iblk0
  rw [View.read_apply]
  show V c main_arg2 _ = V c main_arg2 _
  congr 1
  funext a
  apply Fin.ext
  match a with
  | ⟨0, _⟩ => show win0_1.index t 0 * 128 + 1 * (y 0).val = (y 0).val; rw [e2]; omega
  | ⟨1, _⟩ => show win0_1.index t 1 * 64 + 1 * (y 1).val = (y 1).val; rw [e3]; omega

/-- What point t writes back is block row t of the product of the two whole operands. -/
theorem flushed_eq (c : Dev nD) (t : Fin cfg0.N) :
    (dat0 V c).flushed 2 t
      = ((cfg0.win 2).blk t).view.read (Elt Ideal) (Cert.Prod.mm (V c main_arg0 : S50000x128.Idx → EReal) (V c main_arg2 : S128x64.Idx → EReal)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  rw [pay_eq, rblk_eq]
  obtain ⟨-, -, -, -, e4, e5⟩ := idx_facts t
  funext j
  show Cert.Prod.mm (iblk0 V c 0 t : Vec Ideal S5000x128 .f32) (V c main_arg2 : S128x64.Idx → EReal) j
    = Cert.Prod.mm (V c main_arg0 : S50000x128.Idx → EReal) (V c main_arg2 : S128x64.Idx → EReal) (((cfg0.win 2).blk t).view.emb j)
  refine Cert.Prod.mm_rows _ _ _ t.val (fun y z h0 h1 => lblk_apply V c t y z h0 h1) j _ ?_ ?_
  · show win0_2.index t 0 * 5000 + 1 * (j 0).val = t.val * 5000 + (j 0).val
    rw [e4]; omega
  · show win0_2.index t 1 * 64 + 1 * (j 1).val = (j 1).val
    rw [e5]; omega

/-- An index of the result array is in point t's block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v31).slice (win0_2.rect t)).set ↔ _
  rw [View.set_slice_whole, Rect.mem_set_unit]
  exact Iff.rfl

/-- Every index of the result array is in the block of the point its row falls in. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  have hlt : (i 0).val / 5000 < cfg0.N := by rw [hN]; omega
  obtain ⟨-, -, -, -, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ 0 * 5000 ≤ (i 0).val ∧ (i 0).val < win0_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ 1 * 64 ≤ (i 1).val ∧ (i 1).val < win0_2.index ⟨(i 0).val / 5000, hlt⟩ 1 * 64 + 64
    rw [e5]; omega

/-- The result array when the region is left: the product of the two operands as the region found them. -/
theorem final (c : Dev nD) :
    (dat0 V c).arrAt 2 cfg0.N = Cert.Prod.mm (V c main_arg0 : S50000x128.Idx → EReal) (V c main_arg2 : S128x64.Idx → EReal) :=
  (dat0 V c).arrAt_eq_of_cover 2 _ (fun t _ => flushed_eq V c t) (cover)

end Cert.KernelIdeal.Proj0

end
-- ==== Proof.Proj1.lean ====
/-
  Region 1 of the kernel program: what its result array holds when the region is left.

  The region is a pipeline over a grid of ten points. Point t stages rows 5000·t, …, 5000·t + 4999 of the left
  operand (a 50000 × 64 array) and the whole right operand (64 × 32); its body multiplies the two staged blocks
  (narrowed to bf16, accumulated from zero) and stores the 5000 × 32 product; the block is written back to rows
  5000·t, … of the 50000 × 32 result array. On the extended reals the body's product is the plain sum of products,
  an entry of a product depends on one row of the left factor only, and the ten row blocks tile the array: so the
  result array ends holding the product of the two whole operands, as they were when the region was entered.
  Stated for any contents `V` of the core's buffers at the region's entry.
-/
import proofs.«141572_j49795850830443_2_alg».proof.Proof.Gen.KernelIdeal.Frame
import proofs.«141572_j49795850830443_2_alg».proof.Proof.Prod
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Proj1

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of the two blocks it loads. -/
theorem pay_eq (x0 : Vec Ideal S5000x64 .f32) (x1 : Vec Ideal S64x32 .f32) : k1_pay1 x0 x1 = Cert.Prod.mm x0 x1 := by
  unfold k1_pay1
  simp only [shapeCast_self]
  exact Cert.Prod.matmul_eq_mm dot_S5000x64_S64x32_S5000x32_1_0_0_1_n_n rfl rfl rfl rfl rfl rfl x0 x1 bitsLt_bf16_f32

/-- The printed index maps over the grid: the left operand's and the result's blocks are block row t, the right
    operand's block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 5000·t, … of the array. -/
theorem lblk_apply (c : Dev nD) (t : Fin cfg1.N) (y : S5000x64.Idx) (z : S50000x64.Idx)
    (h0 : (z 0).val = t.val * 5000 + (y 0).val) (h1 : (z 1).val = (y 1).val) :
    (iblk1 V c 0 t : Vec Ideal S5000x64 .f32) y = (V c main_v47 : S50000x64.Idx → EReal) z := by
  obtain ⟨e0, e1, -⟩ := idx_facts t
  unfold iblk1
  rw [View.read_apply]
  show V c main_v47 _ = V c main_v47 _
  congr 1
  funext a
  apply Fin.ext
  match a with
  | ⟨0, _⟩ => show win1_0.index t 0 * 5000 + 1 * (y 0).val = (z 0).val; rw [e0, h0]; omega
  | ⟨1, _⟩ => show win1_0.index t 1 * 64 + 1 * (y 1).val = (z 1).val; rw [e1, h1]; omega

/-- The right operand's block at every point is the whole array. -/
theorem rblk_eq (c : Dev nD) (t : Fin cfg1.N) :
    (iblk1 V c 1 t : Vec Ideal S64x32 .f32) = (V c main_arg4 : S64x32.Idx → EReal) := by
  obtain ⟨-, -, e2, e3, -⟩ := idx_facts t
  funext y
  unfold iblk1
  rw [View.read_apply]
  show V c main_arg4 _ = V c main_arg4 _
  congr 1
  funext a
  apply Fin.ext
  match a with
  | ⟨0, _⟩ => show win1_1.index t 0 * 64 + 1 * (y 0).val = (y 0).val; rw [e2]; omega
  | ⟨1, _⟩ => show win1_1.index t 1 * 32 + 1 * (y 1).val = (y 1).val; rw [e3]; omega

/-- What point t writes back is block row t of the product of the two whole operands. -/
theorem flushed_eq (c : Dev nD) (t : Fin cfg1.N) :
    (dat1 V c).flushed 2 t
      = ((cfg1.win 2).blk t).view.read (Elt Ideal) (Cert.Prod.mm (V c main_v47 : S50000x64.Idx → EReal) (V c main_arg4 : S64x32.Idx → EReal)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x32) hz]
  rw [pay_eq, rblk_eq]
  obtain ⟨-, -, -, -, e4, e5⟩ := idx_facts t
  funext j
  show Cert.Prod.mm (iblk1 V c 0 t : Vec Ideal S5000x64 .f32) (V c main_arg4 : S64x32.Idx → EReal) j
    = Cert.Prod.mm (V c main_v47 : S50000x64.Idx → EReal) (V c main_arg4 : S64x32.Idx → EReal) (((cfg1.win 2).blk t).view.emb j)
  refine Cert.Prod.mm_rows _ _ _ t.val (fun y z h0 h1 => lblk_apply V c t y z h0 h1) j _ ?_ ?_
  · show win1_2.index t 0 * 5000 + 1 * (j 0).val = t.val * 5000 + (j 0).val
    rw [e4]; omega
  · show win1_2.index t 1 * 32 + 1 * (j 1).val = (j 1).val
    rw [e5]; omega

/-- An index of the result array is in point t's block iff each coordinate is in the block's range on its axis. -/
theorem mem_blk (t : Fin cfg1.N) (i : S50000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v48).slice (win1_2.rect t)).set ↔ _
  rw [View.set_slice_whole, Rect.mem_set_unit]
  exact Iff.rfl

/-- Every index of the result array is in the block of the point its row falls in. -/
theorem cover (i : S50000x32.Idx) : ∃ t : Fin cfg1.N, (cfg1.win 2).flush t = true ∧ i ∈ ((cfg1.win 2).blk t).view.set := by
  have hi0 : (i 0).val < 50000 := (i 0).isLt
  have hi1 : (i 1).val < 32 := (i 1).isLt
  have hN : cfg1.N = 10 := N_1
  have hlt : (i 0).val / 5000 < cfg1.N := by rw [hN]; omega
  obtain ⟨-, -, -, -, e4, e5⟩ := idx_facts ⟨(i 0).val / 5000, hlt⟩
  refine ⟨⟨(i 0).val / 5000, hlt⟩, flush1_2 _, ?_⟩
  rw [mem_blk]
  intro a
  match a with
  | ⟨0, _⟩ =>
    show win1_2.index ⟨(i 0).val / 5000, hlt⟩ 0 * 5000 ≤ (i 0).val ∧ (i 0).val < win1_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, hlt⟩ 1 * 32 ≤ (i 1).val ∧ (i 1).val < win1_2.index ⟨(i 0).val / 5000, hlt⟩ 1 * 32 + 32
    rw [e5]; omega

/-- The result array when the region is left: the product of the two operands as the region found them. -/
theorem final (c : Dev nD) :
    (dat1 V c).arrAt 2 cfg1.N = Cert.Prod.mm (V c main_v47 : S50000x64.Idx → EReal) (V c main_arg4 : S64x32.Idx → EReal) :=
  (dat1 V c).arrAt_eq_of_cover 2 _ (fun t _ => flushed_eq V c t) (cover)

end Cert.KernelIdeal.Proj1

end
-- ==== Proof.Spec.lean ====
/-
  The value both programs compute, as one function of the six argument arrays on the extended reals: the two-layer
  graph network of Proof/HostFn.lean with the plain matrix product `mm` of Proof/Prod.lean as both projections,

      G x e W1 b1 W2 b2 = mean_n ( layer₂ ( relu ( layer₁ ( x · W1 ) + b1 ) · W2 ) + b2 ),

  the layers' gather, scale and scatter-add over the graph e left as the host operations they are.
-/
import proofs.«141572_j49795850830443_2_alg».proof.Proof.HostFn
import proofs.«141572_j49795850830443_2_alg».proof.Proof.Prod

noncomputable section

namespace Cert.KernelIdeal.Spec

open Cert.KernelIdeal Cert.KernelIdeal.Gen Idealize.ShloMosaic

/-- The graph network of the six arguments, both projections the plain product. -/
def G (x : S50000x128.Idx → EReal) (e : (⟨S2x800000, .i32⟩ : BufTy).Contents (Elt Ideal)) (w1 : S128x64.Idx → EReal)
    (b1 : S64.Idx → EReal) (w2 : S64x32.Idx → EReal) (b2 : S32.Idx → EReal) : S1x32.Idx → EReal :=
  Gcn.layerMean (F := Ideal)
    (Cert.Prod.mm (Gcn.layerRelu (F := Ideal) (Cert.Prod.mm x w1) (Gcn.srcIds e) (Gcn.dstIds e) (Gcn.edgeNorm (Gcn.srcIds e) (Gcn.dstIds e)) b1) w2)
    (Gcn.srcIds e) (Gcn.dstIds e) (Gcn.edgeNorm (Gcn.srcIds e) (Gcn.dstIds e)) b2

end Cert.KernelIdeal.Spec

end
-- ==== Proof.KValue.lean ====
/-
  The kernel program's result as a function of its arguments, on the extended reals.

  The buffers' contents are followed through the run's boundaries: the edge ids, the edge weights and the parameters
  pass unchanged through every later stretch and region (nothing writes them); the first region leaves the product
  of the features with the first weight matrix; the stretch after it applies the first layer; the second region
  leaves the product of the first layer's output with the second weight matrix; the last stretch applies the second
  layer and the mean. So the result is the graph network of the arguments with the plain matrix product `mm` as
  both projections.
-/
import proofs.«141572_j49795850830443_2_alg».proof.Proof.Gen.KernelIdeal.Frame
import proofs.«141572_j49795850830443_2_alg».proof.Proof.KHost
import proofs.«141572_j49795850830443_2_alg».proof.Proof.Proj0
import proofs.«141572_j49795850830443_2_alg».proof.Proof.Proj1
import proofs.«141572_j49795850830443_2_alg».proof.Proof.Spec

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer no operation of a stretch writes holds after the stretch what it held before. -/
macro "keep_through " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Up to the first region -/

theorem W1_src (c : Dev nD) : W1 m ρ c (Proc.devRef .tc main_v3) = Gcn.srcIds (m ((c : Thread nD τ).loc main_arg1)) :=
  Stretch.ops0_src (W0 m ρ c)
theorem W1_dst (c : Dev nD) : W1 m ρ c (Proc.devRef .tc main_v6) = Gcn.dstIds (m ((c : Thread nD τ).loc main_arg1)) :=
  Stretch.ops0_dst (W0 m ρ c)

theorem W2_dinv (c : Dev nD) : W2 m ρ c (Proc.devRef .tc main_v14) = Gcn.degInv (Gcn.dstIds (m ((c : Thread nD τ).loc main_arg1))) := by
  refine (Stretch.ops0_1_dinv (W1 m ρ c)).trans ?_
  rw [show W1 m ρ c (Proc.devRef .tc main_v12) = _ from Stretch.ops0_pos (W0 m ρ c),
    show W1 m ρ c (Proc.devRef .tc main_v13) = _ from Stretch.ops0_rsqrt (W0 m ρ c),
    show W1 m ρ c (Proc.devRef .tc main_cst_2) = _ from Stretch.ops0_zero (W0 m ρ c)]
  rfl

theorem W2_src (c : Dev nD) : W2 m ρ c (Proc.devRef .tc main_v3) = Gcn.srcIds (m ((c : Thread nD τ).loc main_arg1)) :=
  calc W2 m ρ c (Proc.devRef .tc main_v3)
    _ = W1 m ρ c (Proc.devRef .tc main_v3) := by keep_through hostOps0_1
    _ = _ := W1_src m ρ c
theorem W2_dst (c : Dev nD) : W2 m ρ c (Proc.devRef .tc main_v6) = Gcn.dstIds (m ((c : Thread nD τ).loc main_arg1)) :=
  calc W2 m ρ c (Proc.devRef .tc main_v6)
    _ = W1 m ρ c (Proc.devRef .tc main_v6) := by keep_through hostOps0_1
    _ = _ := W1_dst m ρ c

theorem W3_src (c : Dev nD) : W3 m ρ c (Proc.devRef .tc main_v3) = Gcn.srcIds (m ((c : Thread nD τ).loc main_arg1)) :=
  calc W3 m ρ c (Proc.devRef .tc main_v3)
    _ = W2 m ρ c (Proc.devRef .tc main_v3) := by keep_through hostOps0_2
    _ = _ := W2_src m ρ c
theorem W3_dst (c : Dev nD) : W3 m ρ c (Proc.devRef .tc main_v6) = Gcn.dstIds (m ((c : Thread nD τ).loc main_arg1)) :=
  calc W3 m ρ c (Proc.devRef .tc main_v6)
    _ = W2 m ρ c (Proc.devRef .tc main_v6) := by keep_through hostOps0_2
    _ = _ := W2_dst m ρ c
theorem W3_norm (c : Dev nD) : W3 m ρ c (Proc.devRef .tc main_v30)
    = Gcn.edgeNorm (Gcn.srcIds (m ((c : Thread nD τ).loc main_arg1))) (Gcn.dstIds (m ((c : Thread nD τ).loc main_arg1))) := by
  refine (Stretch.ops0_2_norm (W2 m ρ c)).trans ?_
  rw [W2_dinv, W2_src, W2_dst]
  rfl

/-- An argument is written by no stretch before the first region. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by keep_through hostOps0_2
    _ = W1 m ρ c (Proc.devRef .tc main_arg0) := by keep_through hostOps0_1
    _ = W0 m ρ c (Proc.devRef .tc main_arg0) := by keep_through hostOps0
    _ = _ := rfl
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by keep_through hostOps0_2
    _ = W1 m ρ c (Proc.devRef .tc main_arg2) := by keep_through hostOps0_1
    _ = W0 m ρ c (Proc.devRef .tc main_arg2) := by keep_through hostOps0
    _ = _ := rfl
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by keep_through hostOps0_2
    _ = W1 m ρ c (Proc.devRef .tc main_arg3) := by keep_through hostOps0_1
    _ = W0 m ρ c (Proc.devRef .tc main_arg3) := by keep_through hostOps0
    _ = _ := rfl
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by keep_through hostOps0_2
    _ = W1 m ρ c (Proc.devRef .tc main_arg4) := by keep_through hostOps0_1
    _ = W0 m ρ c (Proc.devRef .tc main_arg4) := by keep_through hostOps0
    _ = _ := rfl
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by keep_through hostOps0_2
    _ = W1 m ρ c (Proc.devRef .tc main_arg5) := by keep_through hostOps0_1
    _ = W0 m ρ c (Proc.devRef .tc main_arg5) := by keep_through hostOps0
    _ = _ := rfl

/-! ## The first region and the first layer -/

/-- The first region leaves the features' product with the first weight matrix. -/
theorem W4_proj (c : Dev nD) : W4 m ρ c (Proc.devRef .tc main_v31)
    = Cert.Prod.mm (m ((c : Thread nD τ).loc main_arg0) : S50000x128.Idx → EReal) (m ((c : Thread nD τ).loc main_arg2) : S128x64.Idx → EReal) := by
  refine (W4_arr m ρ c 2).trans ((Proj0.final (V3 m ρ) c).trans ?_)
  rw [show V3 m ρ c main_arg0 = _ from W3_arg0 m ρ c, show V3 m ρ c main_arg2 = _ from W3_arg2 m ρ c]

theorem W6_act (c : Dev nD) : W6 m ρ c (Proc.devRef .tc main_v47)
    = Gcn.layerRelu (F := Ideal)
        (Cert.Prod.mm (m ((c : Thread nD τ).loc main_arg0) : S50000x128.Idx → EReal) (m ((c : Thread nD τ).loc main_arg2) : S128x64.Idx → EReal))
        (Gcn.srcIds (m ((c : Thread nD τ).loc main_arg1))) (Gcn.dstIds (m ((c : Thread nD τ).loc main_arg1)))
        (Gcn.edgeNorm (Gcn.srcIds (m ((c : Thread nD τ).loc main_arg1))) (Gcn.dstIds (m ((c : Thread nD τ).loc main_arg1))))
        (m ((c : Thread nD τ).loc main_arg3)) := by
  refine (Stretch.ops1_1_relu (W5 m ρ c)).trans ?_
  rw [show W5 m ρ c (Proc.devRef .tc main_v46) = _ from Stretch.ops1_agg (W4 m ρ c)]
  rw [W4_proj,
    show W4 m ρ c (Proc.devRef .tc main_v3) = _ from (W4_of_ne m ρ c main_v3 (by decide)).trans (W3_src m ρ c),
    show W4 m ρ c (Proc.devRef .tc main_v6) = _ from (W4_of_ne m ρ c main_v6 (by decide)).trans (W3_dst m ρ c),
    show W4 m ρ c (Proc.devRef .tc main_v30) = _ from (W4_of_ne m ρ c main_v30 (by decide)).trans (W3_norm m ρ c),
    show W4 m ρ c (Proc.devRef .tc main_arg3) = _ from (W4_of_ne m ρ c main_arg3 (by decide)).trans (W3_arg3 m ρ c)]
  rfl

theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := by keep_through hostOps1_1
    _ = W4 m ρ c (Proc.devRef .tc main_arg4) := by keep_through hostOps1
    _ = W3 m ρ c (Proc.devRef .tc main_arg4) := W4_of_ne m ρ c main_arg4 (by decide)
    _ = _ := W3_arg4 m ρ c

/-! ## The second region, the second layer and the mean -/

/-- The second region leaves the first layer's output multiplied with the second weight matrix. -/
theorem W7_proj (c : Dev nD) : W7 m ρ c (Proc.devRef .tc main_v48)
    = Cert.Prod.mm (W6 m ρ c (Proc.devRef .tc main_v47) : S50000x64.Idx → EReal) (m ((c : Thread nD τ).loc main_arg4) : S64x32.Idx → EReal) := by
  refine (W7_arr m ρ c 2).trans ((Proj1.final (V6 m ρ) c).trans ?_)
  rw [show V6 m ρ c main_arg4 = _ from W6_arg4 m ρ c]

theorem W7_src (c : Dev nD) : W7 m ρ c (Proc.devRef .tc main_v3) = Gcn.srcIds (m ((c : Thread nD τ).loc main_arg1)) :=
  calc W7 m ρ c (Proc.devRef .tc main_v3)
    _ = W6 m ρ c (Proc.devRef .tc main_v3) := W7_of_ne m ρ c main_v3 (by decide)
    _ = W5 m ρ c (Proc.devRef .tc main_v3) := by keep_through hostOps1_1
    _ = W4 m ρ c (Proc.devRef .tc main_v3) := by keep_through hostOps1
    _ = W3 m ρ c (Proc.devRef .tc main_v3) := W4_of_ne m ρ c main_v3 (by decide)
    _ = _ := W3_src m ρ c
theorem W7_dst (c : Dev nD) : W7 m ρ c (Proc.devRef .tc main_v6) = Gcn.dstIds (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := by keep_through hostOps1_1
    _ = W4 m ρ c (Proc.devRef .tc main_v6) := by keep_through hostOps1
    _ = W3 m ρ c (Proc.devRef .tc main_v6) := W4_of_ne m ρ c main_v6 (by decide)
    _ = _ := W3_dst m ρ c
theorem W7_norm (c : Dev nD) : W7 m ρ c (Proc.devRef .tc main_v30)
    = Gcn.edgeNorm (Gcn.srcIds (m ((c : Thread nD τ).loc main_arg1))) (Gcn.dstIds (m ((c : Thread nD τ).loc main_arg1))) :=
  calc W7 m ρ c (Proc.devRef .tc main_v30)
    _ = W6 m ρ c (Proc.devRef .tc main_v30) := W7_of_ne m ρ c main_v30 (by decide)
    _ = W5 m ρ c (Proc.devRef .tc main_v30) := by keep_through hostOps1_1
    _ = W4 m ρ c (Proc.devRef .tc main_v30) := by keep_through hostOps1
    _ = W3 m ρ c (Proc.devRef .tc main_v30) := W4_of_ne m ρ c main_v30 (by decide)
    _ = _ := W3_norm m ρ c
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := by keep_through hostOps1_1
    _ = W4 m ρ c (Proc.devRef .tc main_arg5) := by keep_through hostOps1
    _ = W3 m ρ c (Proc.devRef .tc main_arg5) := W4_of_ne m ρ c main_arg5 (by decide)
    _ = _ := W3_arg5 m ρ c

/-- THE RESULT: the last boundary's contents at the result buffer are the graph network of the arguments. -/
theorem result (c : Dev nD) : W8 m ρ c (Proc.devRef .tc main_v67)
    = Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Stretch.ops2_mean (W7 m ρ c)).trans ?_
  rw [W7_proj, W6_act, W7_src, W7_dst, W7_norm, W7_arg5]
  rfl

end Cert.KernelIdeal.KV

end
-- ==== Proof.RefValue.lean ====
/-
  The reference program's result is the same function of its arguments.

  The reference's run ends with its result at the composed term of its host operations over the arguments. That term
  is the kernel program's host operations over the same arrays, with the host's `dot_general` where the kernel program
  has a region; and on the extended reals each `dot_general` is the plain product `mm`. So the term is `Spec.G`.
-/
import proofs.«141572_j49795850830443_2_alg».proof.Proof.RefRun
import proofs.«141572_j49795850830443_2_alg».proof.Proof.Spec

set_option maxRecDepth 16384

noncomputable section

namespace Cert.ReferenceIdeal.RefValue

open Cert.ReferenceIdeal Cert.ReferenceIdeal.Gen
open Idealize.ShloMosaic Idealize.ShloMosaic.TcCoe Idealize.SL.Sem

/-- The first projection: features by the first weight matrix. -/
theorem dot1_eq (l : FVec Ideal S50000x128 .f32) (r : FVec Ideal S128x64 .f32) :
    Host.dotGeneral dot_S50000x128_S128x64_S50000x64_1_0_0_1_n_n none l r = Cert.Prod.mm l r :=
  Cert.Prod.dotGeneral_eq_mm dot_S50000x128_S128x64_S50000x64_1_0_0_1_n_n rfl rfl rfl rfl rfl rfl l r

/-- The second projection: the first layer's output by the second weight matrix. -/
theorem dot2_eq (l : FVec Ideal S50000x64 .f32) (r : FVec Ideal S64x32 .f32) :
    Host.dotGeneral dot_S50000x64_S64x32_S50000x32_1_0_0_1_n_n none l r = Cert.Prod.mm l r :=
  Cert.Prod.dotGeneral_eq_mm dot_S50000x64_S64x32_S50000x32_1_0_0_1_n_n rfl rfl rfl rfl rfl rfl l r

/-- The reference run's result term is the graph network of the arguments. -/
theorem result (m : (ℓ : Loc nD τ sig) → Buf (Elt Ideal) ℓ) (c : Dev nD) :
    ValueP.res_main_v91 m c
      = Cert.KernelIdeal.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold ValueP.res_main_v91
  rw [dot1_eq, dot2_eq]
  rfl

end Cert.ReferenceIdeal.RefValue

end
-- ==== Proof.lean ====
/-
  The certificate of the two-layer graph network: the Pallas program against its jnp reference, on the extended reals.

  The kernel program computes each layer's dense projection (features × weights) in a pipelined region — ten row
  blocks of 5000 nodes, each block narrowed to bf16 and multiplied on the matrix unit from a zero accumulator — and
  everything else (self loops, degrees, symmetric normalization, gather, scale, scatter-add, bias, rectifier, mean)
  in host operations; the reference computes the projections with the host's `dot_general` and the rest with the
  same host operations. On the extended reals a change of float format is the identity and both kinds of product
  are the plain sum of products, row by row, so each region leaves exactly the array the reference's `dot_general`
  computes, and the shared host operations then agree as functions. No finiteness is used: the only law between
  the two sides is that a matrix product's entry is the sum over the contracted coordinate, however the rows are
  blocked.

  The modules: Proof/Prod.lean (the product `mm`, both kinds of product are it), Proof/HostFn.lean (the host side as
  functions), Proof/Spec.lean (the value `G`), Proof/Proj0.lean and Proof/Proj1.lean (what each region leaves),
  Proof/KHost.lean (each host stretch of the kernel program), Proof/KRun.lean (the kernel program's run with its
  result named), Proof/KValue.lean (that result is `G`), Proof/RefRun.lean (the reference's run),
  Proof/RefValue.lean (its result is `G`).
-/
import proofs.«141572_j49795850830443_2_alg».proof.Defs
import proofs.«141572_j49795850830443_2_alg».proof.Proof.Gen.Kernel
import proofs.«141572_j49795850830443_2_alg».proof.Proof.Gen.Kernel.Frame
import proofs.«141572_j49795850830443_2_alg».proof.Proof.Gen.KernelIdeal
import proofs.«141572_j49795850830443_2_alg».proof.Proof.Gen.KernelIdeal.Frame
import proofs.«141572_j49795850830443_2_alg».proof.Proof.Gen.ReferenceIdeal
import proofs.«141572_j49795850830443_2_alg».proof.Proof.Gen.Pre_finite_inputs
import proofs.«141572_j49795850830443_2_alg».proof.Proof.KRun
import proofs.«141572_j49795850830443_2_alg».proof.Proof.KValue
import proofs.«141572_j49795850830443_2_alg».proof.Proof.RefRun
import proofs.«141572_j49795850830443_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the graph network `Spec.G` of the arguments. -/
theorem algebraic : Cert.algebraic_KernelIdeal_ReferenceIdeal := by
  intro m ρ m' ρ' _ hagree
  refine ⟨fun c => Cert.KernelIdeal.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KV.result m ρ c), (h c).2⟩)
      (Cert.KernelIdeal.Ran.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
